-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S4x2048x4096 .f32) (main_arg1 : FVec F S16384x4096 .f32) (main_arg2 : FVec F S1 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S8192x4096 : Shape := ⟨2, ![8192, 4096]⟩
abbrev S_ : Shape := ⟨0, ![]⟩
abbrev S1x16384 : Shape := ⟨2, ![1, 16384]⟩
abbrev S8192x16384 : Shape := ⟨2, ![8192, 16384]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩
abbrev S4x2048x16384 : Shape := ⟨3, ![4, 2048, 16384]⟩

abbrev nBuf : Space → Nat
  | .hbm => 13
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S1, .f32⟩
  | .hbm, ⟨3, _⟩ => ⟨S16384, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S16384x4096, .bf16⟩
  | .hbm, ⟨10, _⟩ => ⟨S1x16384, .f32⟩
  | .hbm, ⟨11, _⟩ => ⟨S8192x16384, .f32⟩
  | .hbm, ⟨12, _⟩ => ⟨S4x2048x16384, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S1_S_ : S1.ShapeCasts S_
  bcast_S_S16384x4096 : S_.BroadcastsInDim S16384x4096 (![] : Fin 0 → Fin S16384x4096.rank)
  shapeCasts_S16384_S1x16384 : S16384.ShapeCasts S1x16384
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x16384_S4x2048x16384 : S8192x16384.ShapeCasts S4x2048x16384
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x4096.size a
  hwx0_1 : ∀ i : grid0.Coords, EltTy.bits .bf16 = 32 ∨ (Rect.block (s := S16384x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x16384.size a
  hwx0_3 : ∀ i : grid0.Coords, EltTy.bits .f32 = 32 ∨ (Rect.block (s := S8192x16384) S1024x2048.size (cc0_transform_3 i) (hinb0_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S1x1 : Shape := ⟨2, ![1, 1]⟩
abbrev S4x2048x16384 : Shape := ⟨3, ![4, 2048, 16384]⟩
abbrev S1x1x16384 : Shape := ⟨3, ![1, 1, 16384]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S1, .f32⟩
  | .hbm, ⟨3, _⟩ => ⟨S16384, .f32⟩
  | .hbm, ⟨4, _⟩ => ⟨S1x1, .f32⟩
  | .hbm, ⟨5, _⟩ => ⟨S16384x4096, .f32⟩
  | .hbm, ⟨6, _⟩ => ⟨S16384x4096, .f32⟩
  | .hbm, ⟨7, _⟩ => ⟨S4x2048x16384, .f32⟩
  | .hbm, ⟨8, _⟩ => ⟨S1x1x16384, .f32⟩
  | .hbm, ⟨9, _⟩ => ⟨S4x2048x16384, .f32⟩
  | .hbm, ⟨10, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S16384x4096_0_1 : S1x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Pieces.lean ====
/-
  What each control case of the body leaves in the carried accumulator and in the output block,
  as the body's pure terms of its loads.
-/
import proofs.«118661_j83245056131671_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A middle step (neither the first nor the last K-block): the accumulator  this block's product. -/
theorem scratch_B (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : ¬cond0_1 i)
    (x0 : Vec F S1024x512 .bf16) (x1 : Vec F S2048x512 .bf16) (x2 : Vec F S1x2048 .f32) (xs0 : Vec F S1024x2048 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h3.read_unread, h4.read_unread, h7.read_unread, View.ld_unit_zero (S := S1024x2048) hz,
    View.ld_unit_zero (S := S1024x512) hz, View.ld_unit_zero (S := S2048x512) hz]

/-- The last K-block leaves the same in the accumulator … -/
theorem scratch_C (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : cond0_1 i)
    (x0 : Vec F S1024x512 .bf16) (x1 : Vec F S2048x512 .bf16) (x2 : Vec F S1x2048 .f32) (xs0 : Vec F S1024x2048 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread, View.ld_unit_zero (S := S1024x2048) hz,
    View.ld_unit_zero (S := S1024x512) hz, View.ld_unit_zero (S := S2048x512) hz, View.ld_unit_zero (S := S1x2048) hz]

/-- … and stores the accumulator plus the bias row into the output block. -/
theorem out_C (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : ¬cond0_0 i) (hc1 : cond0_1 i)
    (x0 : Vec F S1024x512 .bf16) (x1 : Vec F S2048x512 .bf16) (x2 : Vec F S1x2048 .f32) (xs0 : Vec F S1024x2048 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x2048) _ hz]
  simp only [View.readAt_eq_ld, h3.read_unread, h4.read_unread, h5.read_unread, h7.read_unread, View.ld_unit_zero (S := S1024x2048) hz,
    View.ld_unit_zero (S := S1024x512) hz, View.ld_unit_zero (S := S2048x512) hz, View.ld_unit_zero (S := S1x2048) hz]

/-- The first K-block: the accumulator is zeroed, then this block's product is added. -/
theorem scratch_A (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole) (a7 : Memref sig .tc .vmem S1024x2048 .f32) (h7 : a7.IsWhole)
    (hc0 : cond0_0 i) (hc1 : ¬cond0_1 i)
    (x0 : Vec F S1024x512 .bf16) (x1 : Vec F S2048x512 .bf16) (x2 : Vec F S1x2048 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x2048) hz, View.readCov_unit_zero (S := S1024x2048) _ hz]
  simp only [View.readAt_eq_ld, h3.read_unread, h4.read_unread, h5.read_unread, h7.read_unread, View.ld_unit_zero (S := S1024x2048) hz,
    View.ld_unit_zero (S := S1024x512) hz, View.ld_unit_zero (S := S2048x512) hz, View.ld_unit_zero (S := S1x2048) hz]

end Cert.KernelIdeal.Acc

end
-- ==== Proof.Payload.lean ====
/-
  The body's three pure terms read at one element, over the extended reals: the zero block;
  the accumulator plus this K-block's product (a sum over the block's 512 columns of the
  x-block's row times the w-block's row: the w-block is contracted along its second axis);
  and the accumulator plus the bias row.
-/
import proofs.«118661_j83245056131671_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Acc

open Cert.KernelIdeal Cert.KernelIdeal.Gen

/-- The zero block. -/
theorem pay1_apply (y : S1024x2048.Idx) : k0_pay1 (F := Ideal) y = Ideal.ofBits .f32 0x00000000#32 := rfl

/-- The x-block's operand index of the product at output element `j`: row `j 0`, … -/
theorem lhs_row (j : S1024x2048.Idx) (q : dot_S1024x512_S2048x512_S1024x2048_1_1_0_0_n_n.contr.Idx) : (dot_S1024x512_S2048x512_S1024x2048_1_1_0_0_n_n.lhsIdx j q 0).val = (j 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
/-- … the contracted column; -/
theorem lhs_col (j : S1024x2048.Idx) (q : dot_S1024x512_S2048x512_S1024x2048_1_1_0_0_n_n.contr.Idx) : (dot_S1024x512_S2048x512_S1024x2048_1_1_0_0_n_n.lhsIdx j q 1).val = (q ⟨0, by decide⟩).val :=
  dot_S1024x512_S2048x512_S1024x2048_1_1_0_0_n_n.lhsIdx_val_of_single rfl j q
/-- the w-block's: row `j 1` (the w-block is indexed [output column, contracted column]), … -/
theorem rhs_row (j : S1024x2048.Idx) (q : dot_S1024x512_S2048x512_S1024x2048_1_1_0_0_n_n.contr.Idx) : (dot_S1024x512_S2048x512_S1024x2048_1_1_0_0_n_n.rhsIdx j q 0).val = (j 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
/-- … the contracted column. -/
theorem rhs_col (j : S1024x2048.Idx) (q : dot_S1024x512_S2048x512_S1024x2048_1_1_0_0_n_n.contr.Idx) : (dot_S1024x512_S2048x512_S1024x2048_1_1_0_0_n_n.rhsIdx j q 1).val = (q ⟨0, by decide⟩).val :=
  dot_S1024x512_S2048x512_S1024x2048_1_1_0_0_n_n.rhsIdx_val_of_single rfl j q

/-- One K-block's step at element (p, r): the accumulator there plus `∑ d, x[p, d] · w[r, d]`. -/
theorem pay2_apply (v3 : FVec Ideal S1024x2048 .f32) (v4 : FVec Ideal S1024x512 .bf16) (v6 : FVec Ideal S2048x512 .bf16)
    (p : Fin 1024) (r : Fin 2048) :
    k0_pay2 (F := Ideal) v3 v4 v6 (ix2 p r) = v3 (ix2 p r) + ∑ d : Fin 512, v4 (ix2 p d) * v6 (ix2 r d) := by
  unfold k0_pay2
  simp only [shapeCast_self]
  show v3 (ix2 p r) + FloatOps.matmul dot_S1024x512_S2048x512_S1024x2048_1_1_0_0_n_n none v4 v6 (constant S1024x2048 .f32 0x00000000#32) (ix2 p r) = _
  rw [Ideal.matmul_constant_zero_apply, ← Equiv.sum_comp (contrEquiv1 dot_S1024x512_S2048x512_S1024x2048_1_1_0_0_n_n 512 rfl rfl).symm]
  refine congrArg (v3 (ix2 p r) + ·) (Finset.sum_congr rfl fun k _ => ?_)
  have hk := contrEquiv1_symm_val dot_S1024x512_S2048x512_S1024x2048_1_1_0_0_n_n 512 rfl rfl k
  have el : dot_S1024x512_S2048x512_S1024x2048_1_1_0_0_n_n.lhsIdx (ix2 p r) ((contrEquiv1 dot_S1024x512_S2048x512_S1024x2048_1_1_0_0_n_n 512 rfl rfl).symm k) = ix2 p k := funext fun a => Fin.ext (by
    match a with
    | ⟨0, _⟩ => exact lhs_row _ _
    | ⟨1, _⟩ => exact (lhs_col _ _).trans hk)
  have er : dot_S1024x512_S2048x512_S1024x2048_1_1_0_0_n_n.rhsIdx (ix2 p r) ((contrEquiv1 dot_S1024x512_S2048x512_S1024x2048_1_1_0_0_n_n 512 rfl rfl).symm k) = ix2 r k := funext fun a => Fin.ext (by
    match a with
    | ⟨0, _⟩ => exact rhs_row _ _
    | ⟨1, _⟩ => exact (rhs_col _ _).trans hk)
  rw [el, er]

/-- The last step at element (p, r): the accumulator there plus the bias row's entry `r`. -/
theorem pay3_apply (v16 : FVec Ideal S1024x2048 .f32) (v17 : FVec Ideal S1x2048 .f32) (p : Fin 1024) (r : Fin 2048) :
    k0_pay3 (F := Ideal) v16 v17 (ix2 p r) = v16 (ix2 p r) + v17 (ix2 0 r) := by
  unfold k0_pay3
  simp only [shapeCast_self]
  show v16 (ix2 p r) + broadcastTo S1024x2048 v17 broadcasts_S1x2048_S1024x2048 (ix2 p r) = _
  refine congrArg (v16 (ix2 p r) + ·) ?_
  refine broadcastTo_apply v17 broadcasts_S1x2048_S1024x2048 (ix2 p r) (ix2 0 r) (fun a => ?_)
  match a with
  | ⟨0, _⟩ => show (0 : ℕ) = if (1 : ℕ) = 1 then 0 else _; rw [if_pos rfl]
  | ⟨1, _⟩ => show r.val = if (2048 : ℕ) = 1 then 0 else r.val; rw [if_neg (by decide)]

end Cert.KernelIdeal.Acc

end
-- ==== Proof.Blocks.lean ====
/-
  Where the windows' blocks sit in their arrays.  Grid point t = 64·i + 8·j + k reads the
  x-block of rows 1024·i … and columns 512·k …, the w-block of rows 2048·j … and columns
  512·k …, the bias block of columns 2048·j …, and owns the output block of rows 1024·i …
  and columns 2048·j ….
-/
import proofs.«118661_j83245056131671_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The block index of every window at every grid point, decided once over the 512 points. -/
theorem idx_facts : ∀ t : Fin cfg0.N,
    win0_0.index t (0 : Fin 2) = t.val / 64 ∧ win0_0.index t (1 : Fin 2) = t.val % 8 ∧
    win0_1.index t (0 : Fin 2) = t.val / 8 % 8 ∧ win0_1.index t (1 : Fin 2) = t.val % 8 ∧
    win0_2.index t (0 : Fin 2) = 0 ∧ win0_2.index t (1 : Fin 2) = t.val / 8 % 8 ∧
    win0_3.index t (0 : Fin 2) = t.val / 64 ∧ win0_3.index t (1 : Fin 2) = t.val / 8 % 8 :=
  (by decide +kernel : ∀ t : Fin grid0.N, _)

/-- The x-block at point `t`, element (p, d): row `1024·(t/64) + p`, column `512·(t%8) + d` of the array. -/
theorem xblk_apply (c : Dev nD) (t : Fin cfg0.N) (p : Fin 1024) (d : Fin 512) (R : Fin 8192) (D : Fin 4096)
    (hR : R.val = 1024 * (t.val / 64) + p.val) (hD : D.val = 512 * (t.val % 8) + d.val) :
    (iblk m c 0 t : Vec F S1024x512 .bf16) (ix2 p d) = V m c main_v1 (ix2 R D) := by
  have hi := idx_facts t
  unfold iblk
  rw [View.read_apply]
  show V m c main_v1 _ = V m c main_v1 _
  refine congrArg (V m c main_v1) (funext fun a => Fin.ext ?_)
  match a with
  | ⟨0, _⟩ => show win0_0.index t 0 * 1024 + 1 * p.val = R.val; rw [hi.1, hR]; omega
  | ⟨1, _⟩ => show win0_0.index t 1 * 512 + 1 * d.val = D.val; rw [hi.2.1, hD]; omega

/-- The w-block at point `t`, element (r, d): row `2048·(t/8%8) + r`, column `512·(t%8) + d`. -/
theorem wblk_apply (c : Dev nD) (t : Fin cfg0.N) (r : Fin 2048) (d : Fin 512) (C : Fin 16384) (D : Fin 4096)
    (hC : C.val = 2048 * (t.val / 8 % 8) + r.val) (hD : D.val = 512 * (t.val % 8) + d.val) :
    (iblk m c 1 t : Vec F S2048x512 .bf16) (ix2 r d) = V m c main_v5 (ix2 C D) := by
  have hi := idx_facts t
  unfold iblk
  rw [View.read_apply]
  show V m c main_v5 _ = V m c main_v5 _
  refine congrArg (V m c main_v5) (funext fun a => Fin.ext ?_)
  match a with
  | ⟨0, _⟩ => show win0_1.index t 0 * 2048 + 1 * r.val = C.val; rw [hi.2.2.1, hC]; omega
  | ⟨1, _⟩ => show win0_1.index t 1 * 512 + 1 * d.val = D.val; rw [hi.2.2.2.1, hD]; omega

/-- The bias block at point `t`, element (0, r): column `2048·(t/8%8) + r` of the bias row. -/
theorem bblk_apply (c : Dev nD) (t : Fin cfg0.N) (r : Fin 2048) (C : Fin 16384)
    (hC : C.val = 2048 * (t.val / 8 % 8) + r.val) :
    (iblk m c 2 t : Vec F S1x2048 .f32) (ix2 0 r) = V m c main_v6 (ix2 0 C) := by
  have hi := idx_facts t
  unfold iblk
  rw [View.read_apply]
  show V m c main_v6 _ = V m c main_v6 _
  refine congrArg (V m c main_v6) (funext fun a => Fin.ext ?_)
  match a with
  | ⟨0, _⟩ => show win0_2.index t 0 * 1 + 1 * 0 = 0; rw [hi.2.2.2.2.1]
  | ⟨1, _⟩ => show win0_2.index t 1 * 2048 + 1 * r.val = C.val; rw [hi.2.2.2.2.2.1, hC]; omega

/-! ## The arrays the region finds, over the extended reals -/

/-- The four arguments as the launch finds them. -/
abbrev xArg (mi : (ℓ : Loc nD τ sig) → Buf (Elt Ideal) ℓ) (c : Dev nD) : S4x2048x4096.Idx → EReal := mi ((c : Thread nD τ).loc main_arg0)
abbrev wArg (mi : (ℓ : Loc nD τ sig) → Buf (Elt Ideal) ℓ) (c : Dev nD) : S16384x4096.Idx → EReal := mi ((c : Thread nD τ).loc main_arg1)
abbrev sArg (mi : (ℓ : Loc nD τ sig) → Buf (Elt Ideal) ℓ) (c : Dev nD) : S1.Idx → EReal := mi ((c : Thread nD τ).loc main_arg2)
abbrev bArg (mi : (ℓ : Loc nD τ sig) → Buf (Elt Ideal) ℓ) (c : Dev nD) : S16384.Idx → EReal := mi ((c : Thread nD τ).loc main_arg3)

/-- The three arrays the region's windows read, as the host operations before the region leave them. -/
def Xa (mi : (ℓ : Loc nD τ sig) → Buf (Elt Ideal) ℓ) (c : Dev nD) : S8192x4096.Idx → EReal := V mi c main_v1
def Wa (mi : (ℓ : Loc nD τ sig) → Buf (Elt Ideal) ℓ) (c : Dev nD) : S16384x4096.Idx → EReal := V mi c main_v5
def Ba (mi : (ℓ : Loc nD τ sig) → Buf (Elt Ideal) ℓ) (c : Dev nD) : S1x16384.Idx → EReal := V mi c main_v6

/-- The x array the region finds is the argument reshaped [4, 2048, 4096] → [8192, 4096] (the change of float
    format is the identity on the extended reals): row `2048·b + s` is `x[b, s, ·]`. -/
theorem X_apply (mi : (ℓ : Loc nD τ sig) → Buf (Elt Ideal) ℓ) (c : Dev nD) (R : Fin 8192) (D : Fin 4096)
    (b : Fin 4) (s : Fin 2048) (hR : R.val = 2048 * b.val + s.val) :
    Xa mi c (ix2 R D) = xArg mi c (ix3 b s D) := by
  have e : Xa mi c
      = truncf (F := Ideal) .bf16 (shapeCast S8192x4096 (xArg mi c) shapeCasts_S4x2048x4096_S8192x4096) bitsLt_bf16_f32 := by
    show StableHlo.after hostOps0 (fun b => mi (c, b)) (Proc.devRef .tc main_v1) = _
    after_results
    rfl
  rw [e]
  show shapeCast S8192x4096 (xArg mi c) shapeCasts_S4x2048x4096_S8192x4096 (ix2 R D) = _
  refine shapeCast_apply _ _ (ix2 R D) (ix3 b s D) ?_
  rw [Shape.rowMajor_val_three, Shape.rowMajor_val_two]
  show (b.val * 2048 + s.val) * 4096 + D.val = R.val * 4096 + D.val
  rw [hR]; ring

/-- The w array the region finds is the weight times the scale, element by element. -/
theorem W_apply (mi : (ℓ : Loc nD τ sig) → Buf (Elt Ideal) ℓ) (c : Dev nD) (C : Fin 16384) (D : Fin 4096) :
    Wa mi c (ix2 C D) = wArg mi c (ix2 C D) * sArg mi c (ix1 0) := by
  have e : Wa mi c
      = truncf (F := Ideal) .bf16 (mulf (wArg mi c) (broadcastInDim S16384x4096 ![] bcast_S_S16384x4096
          (shapeCast S_ (sArg mi c) shapeCasts_S1_S_))) bitsLt_bf16_f32 := by
    show StableHlo.after hostOps0 (fun b => mi (c, b)) (Proc.devRef .tc main_v5) = _
    after_results
    rfl
  rw [e]
  show wArg mi c (ix2 C D) * broadcastInDim S16384x4096 ![] bcast_S_S16384x4096
          (shapeCast S_ (sArg mi c) shapeCasts_S1_S_) (ix2 C D) = _
  refine congrArg (wArg mi c (ix2 C D) * ·) ?_
  refine (broadcastInDim_apply _ bcast_S_S16384x4096 _ (ix2 C D) ix0 (fun a => a.elim0)).trans ?_
  refine shapeCast_apply _ _ ix0 (ix1 0) ?_
  rw [Shape.rowMajor_val_one]
  show 0 = (Shape.rowMajorPi _ _).val
  rw [Shape.rowMajorPi_zero]

/-- The bias row the region finds is the bias viewed [16384] → [1, 16384]. -/
theorem B_apply (mi : (ℓ : Loc nD τ sig) → Buf (Elt Ideal) ℓ) (c : Dev nD) (C : Fin 16384) :
    Ba mi c (ix2 0 C) = bArg mi c (ix1 C) := by
  have e : Ba mi c = shapeCast S1x16384 (bArg mi c) shapeCasts_S16384_S1x16384 := by
    show StableHlo.after hostOps0 (fun b => mi (c, b)) (Proc.devRef .tc main_v6) = _
    after_results
    rfl
  rw [e]
  refine shapeCast_apply _ _ (ix2 0 C) (ix1 C) ?_
  rw [Shape.rowMajor_val_one, Shape.rowMajor_val_two]
  show C.val = 0 * 16384 + C.val
  omega

end Cert.KernelIdeal.Acc

end
-- ==== Proof.Spec.lean ====
/-
  The result both programs compute, as one function of the argument arrays — a linear layer
      out[b, s, o] = (∑ D < 4096, x[b, s, D] · (w[o, D] · scale)) + bias[o]
  — and the one law that joins the two sides: a sum over the 4096 contracted columns taken in
  eight consecutive runs of 512 columns, each run added to a running total that starts from
  zero, is the whole sum.  Only commutativity and associativity of  on the extended reals
  are used, so nothing here asks for finite inputs.
-/
import Idealize.ShloMosaic.PureOps.Ideal
import Idealize.ShloMosaic.Lib.ValueIdx

noncomputable section

namespace Cert.Linear

open Idealize.ShloMosaic Idealize.ShloMosaic.ValueIdx

/-- Column `d` of the `kk`-th run of 512 contracted columns. -/
def kcol (kk : ℕ) (d : Fin 512) : Fin 4096 := ⟨(512 * kk + d.val) % 4096, Nat.mod_lt _ (by decide)⟩

/-- The running total after run `k`: `z + f 0`, then `+ f (k + 1)`. -/
def partialSum (z : EReal) (f : ℕ → EReal) : ℕ → EReal
  | 0 => z + f 0
  | k + 1 => partialSum z f k + f (k + 1)

theorem partialSum_zero (z : EReal) (f : ℕ → EReal) : partialSum z f 0 = z + f 0 := rfl
theorem partialSum_succ (z : EReal) (f : ℕ → EReal) (k : ℕ) :
    partialSum z f (k + 1) = partialSum z f k + f (k + 1) := rfl

/-- Started from zero, the running total after run `k` is the sum of the runs up to `k`. -/
theorem partialSum_eq_sum (f : ℕ → EReal) : ∀ k, partialSum 0 f k = ∑ j ∈ Finset.range (k + 1), f j
  | 0 => by rw [partialSum_zero, zero_add, Finset.sum_range_one]
  | k + 1 => by rw [partialSum_succ, partialSum_eq_sum f k, Finset.sum_range_succ _ (k + 1)]

/-- Eight runs of 512 columns are the 4096 columns: `(j, d) ↦ 512 j + d` is a bijection. -/
theorem sum_kblocks (g : Fin 4096 → EReal) :
    ∑ j ∈ Finset.range 8, ∑ d : Fin 512, g (kcol j d) = ∑ D : Fin 4096, g D := by
  rw [Finset.sum_range (fun j => ∑ d : Fin 512, g (kcol j d))]
  refine (Fintype.sum_prod_type' (fun (j : Fin 8) (d : Fin 512) => g (kcol j.val d))).symm.trans ?_
  refine Fintype.sum_equiv (finProdFinEquiv (m := 8) (n := 512)) _ g (fun p => congrArg g (Fin.ext ?_))
  have h1 := p.1.isLt
  have h2 := p.2.isLt
  show (512 * p.1.val + p.2.val) % 4096 = p.2.val + 512 * p.1.val
  omega

/-- The running total over all eight runs, started from zero, is the whole contraction. -/
theorem kblocks_total (g : Fin 4096 → EReal) :
    partialSum 0 (fun kk => ∑ d : Fin 512, g (kcol kk d)) 7 = ∑ D : Fin 4096, g D := by
  rw [partialSum_eq_sum]
  exact sum_kblocks g

/-- The linear layer at one output element. -/
def linearAt (x : FVec Ideal ⟨3, ![4, 2048, 4096]⟩ .f32) (w : FVec Ideal ⟨2, ![16384, 4096]⟩ .f32)
    (sc : FVec Ideal ⟨1, ![1]⟩ .f32) (bias : FVec Ideal ⟨1, ![16384]⟩ .f32)
    (b : Fin 4) (s : Fin 2048) (o : Fin 16384) : EReal :=
  (∑ D : Fin 4096, x (ix3 b s D) * (w (ix2 o D) * sc (ix1 0))) + bias (ix1 o)

/-- The linear layer: the whole result array. -/
def linear (x : FVec Ideal ⟨3, ![4, 2048, 4096]⟩ .f32) (w : FVec Ideal ⟨2, ![16384, 4096]⟩ .f32)
    (sc : FVec Ideal ⟨1, ![1]⟩ .f32) (bias : FVec Ideal ⟨1, ![16384]⟩ .f32) :
    FVec Ideal ⟨3, ![4, 2048, 16384]⟩ .f32 :=
  fun i => linearAt x w sc bias (i 0) (i 1) (i 2)

end Cert.Linear

end
-- ==== Proof.Accum.lean ====
/-
  The kernel's value.  At grid point t = 64·i + 8·j + k the carried accumulator holds, at
  element (p, r), the running total over the K-blocks 0 … k of
      ∑ d < 512, X[1024·i + p, 512·k' + d] · W[2048·j + r, 512·k' + d]
  (zeroed at k = 0), by induction on k; at k = 7 the output block is that total plus the bias
  entry, and the 64 output blocks tile the [8192, 16384] array.
-/
import proofs.«118661_j83245056131671_2_alg».proof.Proof.Pieces
import proofs.«118661_j83245056131671_2_alg».proof.Proof.Payload
import proofs.«118661_j83245056131671_2_alg».proof.Proof.Blocks
import proofs.«118661_j83245056131671_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Linear

variable (m : (ℓ : Loc nD τ sig) → Buf (Elt Ideal) ℓ) (ρ : Dev nD → PrngReg)

/-- The zero the accumulator starts from. -/
abbrev z0 : EReal := Ideal.ofBits .f32 0x00000000#32

/-- K-block `kk`'s contribution to output element (R, C). -/
def blockTerm (c : Dev nD) (R : Fin 8192) (C : Fin 16384) (kk : ℕ) : EReal :=
  ∑ d : Fin 512, Xa m c (ix2 R (kcol kk d)) * Wa m c (ix2 C (kcol kk d))

/-! ## What the accumulator holds after each point -/

/-- At the first K-block of an output block the accumulator is the zero block plus the block's product. -/
theorem acc_first (c : Dev nD) (t : Fin cfg0.N) (h0 : t.val % 8 = 0) :
    (outsAt0 m c t.val t.isLt).2
      = k0_pay2 (k0_pay1 (F := Ideal)) (iblk m c 0 t : Vec Ideal S1024x512 .bf16) (iblk m c 1 t : Vec Ideal S2048x512 .bf16) := by
  have h1 : ¬t.val % 8 = 7 := by omega
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h)) (iblk m c 0 t) (iblk m c 1 t) (iblk m c 2 t)

/-- At every later K-block it is what the point before left plus the block's product. -/
theorem acc_next (c : Dev nD) (t : Fin cfg0.N) (h0 : ¬t.val % 8 = 0) :
    (outsAt0 m c t.val t.isLt).2
      = k0_pay2 (outsAt0 m c (t.val - 1) (Nat.lt_of_le_of_lt (Nat.sub_le _ _) t.isLt)).2
          (iblk m c 0 t : Vec Ideal S1024x512 .bf16) (iblk m c 1 t : Vec Ideal S2048x512 .bf16) := by
  by_cases h1 : t.val % 8 = 7
  · rw [outsAt0_C m c t h0 h1]
    dsimp only
    exact scratch_C (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2
  · rw [outsAt0_B m c t h0 h1]
    dsimp only
    exact scratch_B (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2

/-- At the last K-block the output block is the accumulator it leaves plus the bias block. -/
theorem out_last (c : Dev nD) (t : Fin cfg0.N) (h1 : t.val % 8 = 7) :
    (outsAt0 m c t.val t.isLt).1
      = k0_pay3 (outsAt0 m c t.val t.isLt).2 (iblk m c 2 t : Vec Ideal S1x2048 .f32) := by
  have h0 : ¬t.val % 8 = 0 := by omega
  rw [acc_next m c t h0, outsAt0_C m c t h0 h1]
  dsimp only
  exact out_C (F := Ideal) c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

/-- One step at element (p, r) of the block at point `t`: the accumulator there plus K-block `t % 8`'s
    contribution to the array element (R, C) the block element is. -/
theorem step_apply (c : Dev nD) (t : Fin cfg0.N) (acc : Vec Ideal S1024x2048 .f32) (p : Fin 1024) (r : Fin 2048)
    (R : Fin 8192) (C : Fin 16384) (hR : R.val = 1024 * (t.val / 64) + p.val) (hC : C.val = 2048 * (t.val / 8 % 8) + r.val)
    (kk : ℕ) (hk : t.val % 8 = kk) :
    k0_pay2 (F := Ideal) acc (iblk m c 0 t : Vec Ideal S1024x512 .bf16) (iblk m c 1 t : Vec Ideal S2048x512 .bf16) (ix2 p r)
      = acc (ix2 p r) + blockTerm m c R C kk := by
  refine (pay2_apply acc (iblk m c 0 t) (iblk m c 1 t) p r).trans ?_
  refine congrArg (acc (ix2 p r) + ·) (Finset.sum_congr rfl fun d _ => ?_)
  have hd := d.isLt
  have hD : (kcol kk d).val = 512 * (t.val % 8) + d.val := by
    show (512 * kk + d.val) % 4096 = 512 * (t.val % 8) + d.val
    omega
  exact congrArg₂ (· * ·) (xblk_apply m c t p d R (kcol kk d) hR hD) (wblk_apply m c t r d C (kcol kk d) hC hD)

/-- THE RUNNING TOTAL: after the point `8·q + k` the accumulator's element (p, r) is the running total, over the
    K-blocks up to `k`, of the contributions to array element (R, C) — by induction on `k`. -/
theorem acc_eq (c : Dev nD) (q : ℕ) (p : Fin 1024) (r : Fin 2048) (R : Fin 8192) (C : Fin 16384)
    (hR : R.val = 1024 * (q / 8) + p.val) (hC : C.val = 2048 * (q % 8) + r.val) :
    ∀ (k : ℕ) (hk : k < 8) (h : 8 * q + k < cfg0.N),
      (outsAt0 m c (8 * q + k) h).2 (ix2 p r) = partialSum z0 (blockTerm m c R C) k
  | 0, hk, h => by
    refine (congrFun (acc_first m c ⟨8 * q + 0, h⟩ (by show (8 * q + 0) % 8 = 0; omega)) (ix2 p r)).trans ?_
    refine (step_apply m c ⟨8 * q + 0, h⟩ _ p r R C (by show R.val = 1024 * ((8 * q + 0) / 64) + p.val; omega)
      (by show C.val = 2048 * ((8 * q + 0) / 8 % 8) + r.val; omega) 0 (by show (8 * q + 0) % 8 = 0; omega)).trans ?_
    rfl
  | k + 1, hk, h => by
    refine (congrFun (acc_next m c ⟨8 * q + (k + 1), h⟩ (by show ¬(8 * q + (k + 1)) % 8 = 0; omega)) (ix2 p r)).trans ?_
    refine (step_apply m c ⟨8 * q + (k + 1), h⟩ _ p r R C (by show R.val = 1024 * ((8 * q + (k + 1)) / 64) + p.val; omega)
      (by show C.val = 2048 * ((8 * q + (k + 1)) / 8 % 8) + r.val; omega) (k + 1) (by show (8 * q + (k + 1)) % 8 = k + 1; omega)).trans ?_
    rw [partialSum_succ]
    exact congrArg (· + blockTerm m c R C (k + 1)) (acc_eq c q p r R C hR hC k (by omega) (Nat.lt_of_succ_lt h))

end Cert.KernelIdeal.Acc

end
-- ==== Proof.Result.lean ====
/-
  From blocks to the array, and from the array to the result.  The output block written back
  at the last K-block of (i, j) is the restriction of ONE function of the [8192, 16384] array
  index: element (R, C) is the running total over all eight K-blocks of X[R, ·]·W[C, ·], plus
  the bias entry C.  The 64 blocks tile the array, the host reshape views it [4, 2048, 16384],
  and the running total over eight K-blocks started from zero is the whole contraction.
-/
import proofs.«118661_j83245056131671_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Linear

variable (m : (ℓ : Loc nD τ sig) → Buf (Elt Ideal) ℓ) (ρ : Dev nD → PrngReg)

/-- Element (R, C) of the [8192, 16384] array after the region. -/
def outAt (c : Dev nD) (R : Fin 8192) (C : Fin 16384) : EReal :=
  partialSum z0 (blockTerm m c R C) 7 + Ba m c (ix2 0 C)

/-- The [8192, 16384] array after the region. -/
def out2d (c : Dev nD) : S8192x16384.Idx → EReal := fun j => outAt m c (j 0) (j 1)

theorem outsAt0_congr (c : Dev nD) (n n' : ℕ) (h : n < cfg0.N) (h' : n' < cfg0.N) (e : n = n') :
    outsAt0 m c n h = outsAt0 m c n' h' := by
  subst e; rfl

/-- The output block at a write-back point, element (p, r), is the array function at the element's place. -/
theorem out_block_apply (c : Dev nD) (t : Fin cfg0.N) (h1 : t.val % 8 = 7) (p : Fin 1024) (r : Fin 2048)
    (R : Fin 8192) (C : Fin 16384) (hR : R.val = 1024 * (t.val / 64) + p.val) (hC : C.val = 2048 * (t.val / 8 % 8) + r.val) :
    (outsAt0 m c t.val t.isLt).1 (ix2 p r) = outAt m c R C := by
  have hN : t.val < 512 := lt_of_lt_of_eq t.isLt (show cfg0.N = 512 from N_0)
  have ht : t.val = 8 * (t.val / 8) + 7 := by omega
  have hlt : 8 * (t.val / 8) + 7 < cfg0.N := lt_of_lt_of_eq (by omega) (show (512 : ℕ) = cfg0.N from N_0.symm)
  refine (congrFun (out_last m c t h1) (ix2 p r)).trans ?_
  refine (pay3_apply (outsAt0 m c t.val t.isLt).2 (iblk m c 2 t) p r).trans ?_
  refine congrArg₂ (· + ·) ?_ (bblk_apply m c t r C hC)
  rw [outsAt0_congr m c t.val _ t.isLt hlt ht]
  exact acc_eq m c (t.val / 8) p r R C (by omega) (by omega) 7 (by omega) hlt

/-- WHAT A WRITE-BACK POINT WRITES is its block of `out2d`. -/
theorem flushed_eq (c : Dev nD) (t : Fin cfg0.N) (hf : (cfg0.win 3).flush t = true) :
    (dats m 0 c).flushed 3 t = ((cfg0.win 3).blk t).view.read (Elt Ideal) (out2d m c) := by
  have h1 : t.val % 8 = 7 := (flush0_3 t).mp hf
  have hi := idx_facts t
  have hN : t.val < 512 := lt_of_lt_of_eq t.isLt (show cfg0.N = 512 from N_0)
  show (cfg0.win 3).cut (grid0.coords t) ((dats m 0 c).after 3 t) = _
  rw [after0_3]
  refine funext fun (j : S1024x2048.Idx) => ?_
  have hj0 : (j 0).val < 1024 := (j 0).isLt
  have hj1 : (j 1).val < 2048 := (j 1).isLt
  show (outsAt0 m c t.val t.isLt).1 j
    = outAt m c ((((cfg0.win 3).blk t).view.emb j) 0) ((((cfg0.win 3).blk t).view.emb j) 1)
  refine (congrArg (outsAt0 m c t.val t.isLt).1 (eq_ix2 j)).trans ?_
  refine (out_block_apply m c t h1 (j 0) (j 1) ⟨1024 * (t.val / 64) + (j 0).val, by omega⟩
    ⟨2048 * (t.val / 8 % 8) + (j 1).val, by omega⟩ rfl rfl).trans ?_
  refine congrArg₂ (outAt m c) (Fin.ext ?_) (Fin.ext ?_)
  · show 1024 * (t.val / 64) + (j 0).val = win0_3.index t 0 * 1024 + 1 * (j 0).val
    rw [hi.2.2.2.2.2.2.1]; omega
  · show 2048 * (t.val / 8 % 8) + (j 1).val = win0_3.index t 1 * 2048 + 1 * (j 1).val
    rw [hi.2.2.2.2.2.2.2]; omega

/-- An index of the array is in point `t`'s output block iff each coordinate is in the block's range. -/
theorem mem_blk (t : Fin cfg0.N) (i : S8192x16384.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v7).slice (win0_3.rect t)).set ↔ _
  rw [View.set_slice_whole, Rect.mem_set_unit]
  exact Iff.rfl

/-- The 64 write-back points' blocks cover the array: element (R, C) is in the block of (R / 1024, C / 2048). -/
theorem cover (i : S8192x16384.Idx) :
    ∃ t : Fin cfg0.N, (cfg0.win 3).flush t = true ∧ i ∈ ((cfg0.win 3).blk t).view.set := by
  have h0 : (i 0).val < 8192 := (i 0).isLt
  have h1 : (i 1).val < 16384 := (i 1).isLt
  obtain ⟨t, ht⟩ : ∃ t : Fin cfg0.N, t.val = 64 * ((i 0).val / 1024) + 8 * ((i 1).val / 2048) + 7 :=
    ⟨⟨64 * ((i 0).val / 1024) + 8 * ((i 1).val / 2048) + 7,
      lt_of_lt_of_eq (by omega) (show (512 : ℕ) = cfg0.N from N_0.symm)⟩, rfl⟩
  have hi := idx_facts t
  refine ⟨t, (flush0_3 t).mpr (by omega), ?_⟩
  rw [mem_blk]
  intro a
  match a with
  | ⟨0, _⟩ =>
    show win0_3.index t 0 * 1024 ≤ (i 0).val ∧ (i 0).val < win0_3.index t 0 * 1024 + 1024
    rw [hi.2.2.2.2.2.2.1]; omega
  | ⟨1, _⟩ =>
    show win0_3.index t 1 * 2048 ≤ (i 1).val ∧ (i 1).val < win0_3.index t 1 * 2048 + 2048
    rw [hi.2.2.2.2.2.2.2]; omega

/-- THE ARRAY after the region. -/
theorem final (c : Dev nD) : (dats m 0 c).arrAt 3 cfg0.N = out2d m c :=
  (dats m 0 c).arrAt_eq_of_cover 3 (out2d m c) (flushed_eq m c) cover

/-- The result: the array viewed [4, 2048, 16384]. -/
def result (c : Dev nD) : S4x2048x16384.Idx → EReal :=
  shapeCast S4x2048x16384 (out2d m c) shapeCasts_S8192x16384_S4x2048x16384

theorem tail_eq (c : Dev nD) : Pipeline.afterTail₀ cfgs (dats m) 0 (V0 m) [hostOps1] c main_v8 = result m c := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7)
      = out2d m c :=
    (Pipeline.withArrays_arr spec0 launch0.win.arr_inj c (V0 m c) (fun w => (dats m 0 c).arrAt w cfg0.N) 3).trans (final m c)
  rw [e]
  rfl

/-- THE RUN, read: every weakly fair execution ends with the result array at `result` and the arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-! ## The result is the linear layer -/

/-- Array element (R, C), with the running total collapsed and the region's arrays read back to the arguments:
    for R = 2048·b + s it is the linear layer at (b, s, C). -/
theorem outAt_eq (c : Dev nD) (R : Fin 8192) (C : Fin 16384) (b : Fin 4) (s : Fin 2048) (hR : R.val = 2048 * b.val + s.val) :
    outAt m c R C = linearAt (xArg m c) (wArg m c) (sArg m c) (bArg m c) b s C := by
  unfold outAt linearAt
  refine congrArg₂ (· + ·) ?_ (B_apply m c C)
  have hz : z0 = 0 := Ideal.ofBits_zero_f32
  rw [hz]
  refine (kblocks_total (fun D => Xa m c (ix2 R D) * Wa m c (ix2 C D))).trans ?_
  exact Finset.sum_congr rfl fun D _ => congrArg₂ (· * ·) (X_apply m c R D b s hR) (W_apply m c C D)

/-- The result array is the linear layer of the arguments. -/
theorem result_eq (c : Dev nD) : result m c = linear (xArg m c) (wArg m c) (sArg m c) (bArg m c) := by
  funext i
  have h0 : (i 0).val < 4 := (i 0).isLt
  have h1 : (i 1).val < 2048 := (i 1).isLt
  refine (shapeCast_apply (out2d m c) shapeCasts_S8192x16384_S4x2048x16384 i (ix2 ⟨2048 * (i 0).val + (i 1).val, by omega⟩ (i 2)) ?_).trans ?_
  · rw [Shape.rowMajor_val_three, Shape.rowMajor_val_two]
    show (2048 * (i 0).val + (i 1).val) * 16384 + (i 2).val = ((i 0).val * 2048 + (i 1).val) * 16384 + (i 2).val
    ring
  · exact outAt_eq m c _ (i 2) (i 0) (i 1) rfl

end Cert.KernelIdeal.Acc

end
-- ==== Proof.RefSide.lean ====
/-
  The reference's result, element by element, is the linear layer: its `dot_general` contracts
  x's last axis with w's last axis, the scale is broadcast over the weight before the product,
  and the bias is broadcast over the two leading axes.
-/
import proofs.«118661_j83245056131671_2_alg».proof.Proof.Gen.ReferenceIdeal.Read
import proofs.«118661_j83245056131671_2_alg».proof.Proof.Spec

noncomputable section

open Idealize.ShloMosaic Idealize.ShloMosaic.ValueIdx

namespace Cert.ReferenceIdeal.RefValue

open Cert.ReferenceIdeal Cert.ReferenceIdeal.Read

theorem ref_eq (x0 : FVec Ideal S4x2048x4096 .f32) (x1 : FVec Ideal S16384x4096 .f32) (x2 : FVec Ideal S1 .f32)
    (x3 : FVec Ideal S16384 .f32) :
    val_main_v6 (F := Ideal) x0 x1 x2 x3 = Cert.Linear.linear x0 x1 x2 x3 := by
  funext i
  have e1 : ∀ k : Fin 4096, lidx_main_v3 i k = ix3 (i 0) (i 1) k := fun k => funext fun a => by
    match a with
    | ⟨0, _⟩ => rfl
    | ⟨1, _⟩ => rfl
    | ⟨2, _⟩ => rfl
  have e2 : ∀ k : Fin 4096, ridx_main_v3 i k = ix2 (i 2) k := fun k => funext fun a => by
    match a with
    | ⟨0, _⟩ => rfl
    | ⟨1, _⟩ => rfl
  have e3 : ∀ j : S16384x4096.Idx, idx_main_v0 (idx_main_v1 j) = ix1 0 := fun j => funext fun a => by
    match a with
    | ⟨0, _⟩ => rfl
  have e4 : idx_main_v4 (idx_main_v5 i) = ix1 (i 2) := funext fun a => by
    match a with
    | ⟨0, _⟩ => rfl
  rw [val_main_v6_apply, val_main_v3_apply, val_main_v5_apply, val_main_v4_apply, e4]
  show (∑ k : Fin 4096, x0 (lidx_main_v3 i k) * val_main_v2 (F := Ideal) x1 x2 (ridx_main_v3 i k)) + x3 (ix1 (i 2))
    = (∑ D : Fin 4096, x0 (ix3 (i 0) (i 1) D) * (x1 (ix2 (i 2) D) * x2 (ix1 0))) + x3 (ix1 (i 2))
  refine congrArg (· + x3 (ix1 (i 2))) (Finset.sum_congr rfl fun k _ => ?_)
  rw [val_main_v2_apply, val_main_v1_apply, val_main_v0_apply, e1, e2, e3 (ix2 (i 2) k)]
  rfl

end Cert.ReferenceIdeal.RefValue

end
-- ==== Proof.lean ====
/-
  A linear layer out[b, s, o] = (∑ D < 4096, x[b, s, D] · (w[o, D] · scale)) + bias[o], computed two ways.

  The kernel views x as [8192, 4096], scales the weight on the host, and runs a grid of
  8 × 8 × 8 points (row block i, column block j, K-block k): an accumulator block is zeroed at
  k = 0, at every k the product of the x-block [1024, 512] with the w-block [2048, 512]
  (contracted along the blocks' second axes) is added to it, and at k = 7 the accumulator plus
  the bias row is written to the output block (i, j); the host views the [8192, 16384] array as
  [4, 2048, 16384].  The reference contracts x's last axis with the scaled weight's last axis in
  one product and adds the broadcast bias.

  Over the extended reals a change of float format is the identity, so both results are sums of
  the same products x[b, s, D] · (w[o, D] · scale): the kernel's as a running total, started at
  zero, over eight consecutive runs of 512 columns D, the reference's as one sum over the 4096
  columns.  The two agree by commutativity and associativity of + alone (Spec: `kblocks_total`),
  which hold at the infinities too: the finiteness precondition is never opened.

  The modules: Spec (the result as one function, and the law); Pieces (what each control case of
  the body leaves, as the body's pure terms); Payload (those terms at one element); Blocks (where
  each window's block sits in its array, and what the arrays hold when the region starts); Accum
  (the accumulator after every point is the running total, by induction on k); Result (the output
  blocks tile the array; the array viewed [4, 2048, 16384] is the linear layer); RefSide (the
  reference's term is the linear layer).  The three frames are the generated ones, the reference's
  being its generated run with the result dropped; the idealization rewrote nothing.
-/
import proofs.«118661_j83245056131671_2_alg».proof.Defs
import proofs.«118661_j83245056131671_2_alg».proof.Proof.Gen.Kernel
import proofs.«118661_j83245056131671_2_alg».proof.Proof.Gen.Kernel.Skeleton
import proofs.«118661_j83245056131671_2_alg».proof.Proof.Gen.Kernel.Launch
import proofs.«118661_j83245056131671_2_alg».proof.Proof.Gen.Kernel.Points
import proofs.«118661_j83245056131671_2_alg».proof.Proof.Gen.Kernel.Frame
import proofs.«118661_j83245056131671_2_alg».proof.Proof.Gen.KernelIdeal
import proofs.«118661_j83245056131671_2_alg».proof.Proof.Gen.KernelIdeal.Skeleton
import proofs.«118661_j83245056131671_2_alg».proof.Proof.Gen.KernelIdeal.Launch
import proofs.«118661_j83245056131671_2_alg».proof.Proof.Gen.KernelIdeal.Points
import proofs.«118661_j83245056131671_2_alg».proof.Proof.Gen.KernelIdeal.Frame
import proofs.«118661_j83245056131671_2_alg».proof.Proof.Gen.ReferenceIdeal
import proofs.«118661_j83245056131671_2_alg».proof.Proof.Gen.ReferenceIdeal.Run
import proofs.«118661_j83245056131671_2_alg».proof.Proof.Gen.ReferenceIdeal.Read
import proofs.«118661_j83245056131671_2_alg».proof.Proof.Gen.Pre_finite_inputs
import proofs.«118661_j83245056131671_2_alg».proof.Proof.Result
import proofs.«118661_j83245056131671_2_alg».proof.Proof.RefSide
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, run from memories that agree on the arguments, end with the linear layer of the arguments. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Acc.result m c
  rw [Cert.ReferenceIdeal.Read.val_main_v6_eq, Cert.ReferenceIdeal.RefValue.ref_eq, Cert.KernelIdeal.Acc.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
